-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x28x28 : Shape := ⟨4, ![128, 512, 28, 28]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S128x512x28x28 : S_.BroadcastsInDim S128x512x28x28 (![] : Fin 0 → Fin S128x512x28x28.rank)
  reducesTo_S128x512x28x28_S_d0_1_2_3 : S128x512x28x28.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S128x512x28x28 .f32) (main_arg1 : FVec F S32x512 .f32) (main_arg2 : FVec F S32 .f32) (main_arg3 : FVec F S512x32 .f32) (main_arg4 : FVec F S512 .f32) : IVec S_ 1 :=
  let main_v0 : FVec F S128x512x28x28 .f32 := Host.absf main_arg0
  let main_cst : FVec F S_ .f32 := constant S_ .f32 0x7F800000#32
  let main_v1 : FVec F S128x512x28x28 .f32 := broadcastInDim S128x512x28x28 ![] bcast_S_S128x512x28x28 main_cst
  let main_v2 : IVec S128x512x28x28 1 := cmpf .olt main_v0 main_v1
  let main_c : IVec S_ 1 := constantI S_ 1 1#1
  let main_v3 : IVec S_ 1 := (fun x v => Host.reduce IntOp.andi x v reducesTo_S128x512x28x28_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512x32 .f32 := Host.absf main_arg3
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg4 main_v13 main_v16
-- ==== Kernel.lean ====
abbrev S128x512x28x28 : Shape := ⟨4, ![128, 512, 28, 28]⟩
abbrev S32x512 : Shape := ⟨2, ![32, 512]⟩
abbrev S32 : Shape := ⟨1, ![32]⟩
abbrev S512x32 : Shape := ⟨2, ![512, 32]⟩
abbrev S512 : Shape := ⟨1, ![512]⟩
abbrev S28x28x128x512 : Shape := ⟨4, ![28, 28, 128, 512]⟩
abbrev S784x128x512 : Shape := ⟨3, ![784, 128, 512]⟩
abbrev S1x32 : Shape := ⟨2, ![1, 32]⟩
abbrev S1x512 : Shape := ⟨2, ![1, 512]⟩
abbrev S784x8x512 : Shape := ⟨3, ![784, 8, 512]⟩
abbrev S8x512 : Shape := ⟨2, ![8, 512]⟩
abbrev S8x32 : Shape := ⟨2, ![8, 32]⟩
abbrev S1x8x512 : Shape := ⟨3, ![1, 8, 512]⟩

abbrev nBuf : Space → Nat
  | .hbm => 14
  | .vmem => 8
  | .smem => 0
  | _ => 0

abbrev bufTy : (tb : Table) → Fin (tcTables nBuf tb) → BufTy
  | .hbm, ⟨0, _⟩ => ⟨S128x512x28x28, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S28x28x128x512, .f32⟩
  | .hbm, ⟨6, _⟩ => ⟨S784x128x512, .f32⟩
  | .hbm, ⟨7, _⟩ => ⟨S512x32, .f32⟩
  | .hbm, ⟨8, _⟩ => ⟨S32x512, .f32⟩
  | .hbm, ⟨9, _⟩ => ⟨S1x32, .f32⟩
  | .hbm, ⟨10, _⟩ => ⟨S1x512, .f32⟩
  | .hbm, ⟨11, _⟩ => ⟨S784x128x512, .f32⟩
  | .hbm, ⟨12, _⟩ => ⟨S28x28x128x512, .f32⟩
  | .hbm, ⟨13, _⟩ => ⟨S128x512x28x28, .f32⟩
  | .local _ .vmem, ⟨0, _⟩ => ⟨S784x8x512, .f32⟩
  | .local _ .vmem, ⟨1, _⟩ => ⟨S784x8x512, .f32⟩
  | .local _ .vmem, ⟨2, _⟩ => ⟨S512x32, .f32⟩
  | .local _ .vmem, ⟨3, _⟩ => ⟨S1x32, .f32⟩
  | .local _ .vmem, ⟨4, _⟩ => ⟨S32x512, .f32⟩
  | .local _ .vmem, ⟨5, _⟩ => ⟨S1x512, .f32⟩
  | .local _ .vmem, ⟨6, _⟩ => ⟨S784x8x512, .f32⟩
  | .local _ .vmem, ⟨7, _⟩ => ⟨S784x8x512, .f32⟩
  | _, _ => ⟨S128x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S784x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S784x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x512x28x28_S28x28x128x512_2_3_0_1 : S128x512x28x28.Transposes [2, 3, 0, 1] S28x28x128x512
  shapeCasts_S28x28x128x512_S784x128x512 : S28x28x128x512.ShapeCasts S784x128x512
  transposes_S32x512_S512x32_1_0 : S32x512.Transposes [1, 0] S512x32
  transposes_S512x32_S32x512_1_0 : S512x32.Transposes [1, 0] S32x512
  shapeCasts_S32_S1x32 : S32.ShapeCasts S1x32
  shapeCasts_S512_S1x512 : S512.ShapeCasts S1x512
  inb_S784x8x512_S784x8x512_0_0_0 : ∀ a, (![0, 0, 0] : Fin 3 → Nat) a + S784x8x512.size a ≤ S784x8x512.size a
  h_S784x8x512 : 0 < S784x8x512.numel
  shapeCasts_S784x8x512_S784x8x512 : S784x8x512.ShapeCasts S784x8x512
  reduces_S784x8x512_S8x512 : S784x8x512.Reduces [0] S8x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8x32 : S1x32.Broadcasts S8x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8x512 : S1x512.Broadcasts S8x512
  shapeCasts_S8x512_S1x8x512 : S8x512.ShapeCasts S1x8x512
  broadcasts_S1x8x512_S784x8x512 : S1x8x512.Broadcasts S784x8x512
  shapeCasts_S784x128x512_S28x28x128x512 : S784x128x512.ShapeCasts S28x28x128x512
  transposes_S28x28x128x512_S128x512x28x28_2_3_0_1 : S28x28x128x512.Transposes [2, 3, 0, 1] S128x512x28x28
  dot_S8x512_S512x32_S8x32_1_0_0_1_n_n_wf : DotDims.WF S8x512 S512x32 S8x32 [1] [0] [0] [1] [] []
  dot_S8x32_S32x512_S8x512_1_0_0_1_n_n_wf : DotDims.WF S8x32 S32x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S784x8x512.size a ≤ S784x128x512.size a
  hwx0_0 : ∀ i : grid0.Coords, EltTy.bits .f32 = 32 ∨ (Rect.block (s := S784x128x512) S784x8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S784x8x512.size a ≤ S784x128x512.size a
  hwx0_5 : ∀ i : grid0.Coords, EltTy.bits .f32 = 32 ∨ (Rect.block (s := S784x128x512) S784x8x512.size (cc0_transform_5 i) (hinb0_5 i)).WholeWords (EltTy.packing .f32)

variable [Facts₀]

def dot_S8x512_S512x32_S8x32_1_0_0_1_n_n : DotDims S8x512 S512x32 S8x32 where
  lhsContracting := [1]
  rhsContracting := [0]
  lhsNonContracting := [0]
  rhsNonContracting := [1]
  lhsBatch := []
  rhsBatch := []
  wf := dot_S8x512_S512x32_S8x32_1_0_0_1_n_n_wf
def dot_S8x32_S32x512_S8x512_1_0_0_1_n_n : DotDims S8x32 S32x512 S8x512 where
  lhsContracting := [1]
  rhsContracting := [0]
  lhsNonContracting := [0]
  rhsNonContracting := [1]
  lhsBatch := []
  rhsBatch := []
  wf := dot_S8x32_S32x512_S8x512_1_0_0_1_n_n_wf

abbrev win0_0 : Pipeline.Window sig grid0 :=
  Pipeline.Window.ofSpec (Memref.whole main_v1) S784x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S784x8x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x512x28x28 : Shape := ⟨4, ![128, 512, 28, 28]⟩
abbrev S32x512 : Shape := ⟨2, ![32, 512]⟩
abbrev S32 : Shape := ⟨1, ![32]⟩
abbrev S512x32 : Shape := ⟨2, ![512, 32]⟩
abbrev S512 : Shape := ⟨1, ![512]⟩
abbrev S128x512x784 : Shape := ⟨3, ![128, 512, 784]⟩
abbrev S1x32 : Shape := ⟨2, ![1, 32]⟩
abbrev S1x512 : Shape := ⟨2, ![1, 512]⟩
abbrev S2x512x784 : Shape := ⟨3, ![2, 512, 784]⟩
abbrev S2x512 : Shape := ⟨2, ![2, 512]⟩
abbrev S1x32x512 : Shape := ⟨3, ![1, 32, 512]⟩
abbrev S2x1x512 : Shape := ⟨3, ![2, 1, 512]⟩
abbrev S2x32x512 : Shape := ⟨3, ![2, 32, 512]⟩
abbrev S2x32 : Shape := ⟨2, ![2, 32]⟩
abbrev S1x512x32 : Shape := ⟨3, ![1, 512, 32]⟩
abbrev S2x1x32 : Shape := ⟨3, ![2, 1, 32]⟩
abbrev S2x512x32 : Shape := ⟨3, ![2, 512, 32]⟩
abbrev S2x512x1 : Shape := ⟨3, ![2, 512, 1]⟩

abbrev nBuf : Space → Nat
  | .hbm => 10
  | .vmem => 8
  | .smem => 0
  | _ => 0

abbrev bufTy : (tb : Table) → Fin (tcTables nBuf tb) → BufTy
  | .hbm, ⟨0, _⟩ => ⟨S128x512x28x28, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S128x512x784, .f32⟩
  | .hbm, ⟨6, _⟩ => ⟨S1x32, .f32⟩
  | .hbm, ⟨7, _⟩ => ⟨S1x512, .f32⟩
  | .hbm, ⟨8, _⟩ => ⟨S128x512x784, .f32⟩
  | .hbm, ⟨9, _⟩ => ⟨S128x512x28x28, .f32⟩
  | .local _ .vmem, ⟨0, _⟩ => ⟨S2x512x784, .f32⟩
  | .local _ .vmem, ⟨1, _⟩ => ⟨S2x512x784, .f32⟩
  | .local _ .vmem, ⟨2, _⟩ => ⟨S32x512, .f32⟩
  | .local _ .vmem, ⟨3, _⟩ => ⟨S1x32, .f32⟩
  | .local _ .vmem, ⟨4, _⟩ => ⟨S512x32, .f32⟩
  | .local _ .vmem, ⟨5, _⟩ => ⟨S1x512, .f32⟩
  | .local _ .vmem, ⟨6, _⟩ => ⟨S2x512x784, .f32⟩
  | .local _ .vmem, ⟨7, _⟩ => ⟨S2x512x784, .f32⟩
  | _, _ => ⟨S128x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512x784 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x512x28x28_S128x512x784 : S128x512x28x28.ShapeCasts S128x512x784
  shapeCasts_S32_S1x32 : S32.ShapeCasts S1x32
  shapeCasts_S512_S1x512 : S512.ShapeCasts S1x512
  inb_S2x512x784_S2x512x784_0_0_0 : ∀ a, (![0, 0, 0] : Fin 3 → Nat) a + S2x512x784.size a ≤ S2x512x784.size a
  h_S2x512x784 : 0 < S2x512x784.numel
  shapeCasts_S2x512x784_S2x512x784 : S2x512x784.ShapeCasts S2x512x784
  reduces_S2x512x784_S2x512 : S2x512x784.Reduces [2] S2x512
  inb_S32x512_S32x512_0_0 : ∀ a, (![0, 0] : Fin 2 → Nat) a + S32x512.size a ≤ S32x512.size a
  h_S32x512 : 0 < S32x512.numel
  shapeCasts_S32x512_S1x32x512 : S32x512.ShapeCasts S1x32x512
  shapeCasts_S2x512_S2x1x512 : S2x512.ShapeCasts S2x1x512
  broadcasts_S1x32x512_S2x32x512 : S1x32x512.Broadcasts S2x32x512
  broadcasts_S2x1x512_S2x32x512 : S2x1x512.Broadcasts S2x32x512
  reduces_S2x32x512_S2x32 : S2x32x512.Reduces [2] S2x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2x32 : S1x32.Broadcasts S2x32
  inb_S512x32_S512x32_0_0 : ∀ a, (![0, 0] : Fin 2 → Nat) a + S512x32.size a ≤ S512x32.size a
  h_S512x32 : 0 < S512x32.numel
  shapeCasts_S512x32_S1x512x32 : S512x32.ShapeCasts S1x512x32
  shapeCasts_S2x32_S2x1x32 : S2x32.ShapeCasts S2x1x32
  broadcasts_S1x512x32_S2x512x32 : S1x512x32.Broadcasts S2x512x32
  broadcasts_S2x1x32_S2x512x32 : S2x1x32.Broadcasts S2x512x32
  reduces_S2x512x32_S2x512 : S2x512x32.Reduces [2] S2x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2x512 : S1x512.Broadcasts S2x512
  shapeCasts_S2x512_S2x512x1 : S2x512.ShapeCasts S2x512x1
  broadcasts_S2x512x1_S2x512x784 : S2x512x1.Broadcasts S2x512x784
  shapeCasts_S128x512x784_S128x512x28x28 : S128x512x784.ShapeCasts S128x512x28x28
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x784.size a ≤ S128x512x784.size a
  hwx0_0 : ∀ i : grid0.Coords, EltTy.bits .f32 = 32 ∨ (Rect.block (s := S128x512x784) S2x512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S512x32.size a
  hwx0_3 : ∀ i : grid0.Coords, EltTy.bits .f32 = 32 ∨ (Rect.block (s := S512x32) S512x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x512x784.size a ≤ S128x512x784.size a
  hwx0_5 : ∀ i : grid0.Coords, EltTy.bits .f32 = 32 ∨ (Rect.block (s := S128x512x784) S2x512x784.size (cc0_transform_5 i) (hinb0_5 i)).WholeWords (EltTy.packing .f32)

variable [Facts₀]

abbrev win0_0 : Pipeline.Window sig grid0 :=
  Pipeline.Window.ofSpec (Memref.whole main_v0) S2x512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x512x784.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.GateSpec.lean ====
/-
  Channel attention by squeeze and excitation, as mathematics, independent of any program.

  A sample n of the input is 512 channel planes of 28 × 28 = 784 positions. Each plane is averaged (its 784 entries are
  summed and the sum is multiplied by the single-precision word nearest 1/784 — the same word on both sides, so its value
  is never needed); the 512 means pass through a small two-layer network (32 hidden units with a rectifier, then 512
  outputs squashed to (0, 1) by the logistic function written 1/2 · tanh (z / 2) + 1/2); and every entry of plane c is
  multiplied by output c of that network, the gate.
-/
import Idealize.ShloMosaic.PureOps.Ideal
import Idealize.ShloMosaic.Lib.ValueIdx

noncomputable section

namespace Cert.Gate

open Idealize.ShloMosaic Idealize.ShloMosaic.ValueIdx

/-- The word multiplying a plane's sum (nearest single-precision value to 1/784), zero, and one half. -/
abbrev invHW : EReal := Ideal.ofBits .f32 0x3AA72F05#32
abbrev zeroW : EReal := Ideal.ofBits .f32 0x00000000#32
abbrev halfW : EReal := Ideal.ofBits .f32 0x3F000000#32

/-- THE GATE of one sample at channel q, from the sample's plane sums s: hidden unit r is the rectified
    Σ_c (s c · 1/784) · W1 r c + B1 r, and the gate is the logistic function of Σ_r hidden r · W2 q r + B2 q. -/
def gate (s : Fin 512 → EReal) (W1 : Fin 32 → Fin 512 → EReal) (B1 : Fin 32 → EReal)
    (W2 : Fin 512 → Fin 32 → EReal) (B2 : Fin 512 → EReal) (q : Fin 512) : EReal :=
  halfW * Ideal.tanh (halfW * ((∑ r : Fin 32, max ((∑ c : Fin 512, s c * invHW * W1 r c) + B1 r) zeroW * W2 q r) + B2 q))
    + halfW

/-- The same gate with each product's factors in the other order: multiplication of extended reals commutes. -/
theorem gate_comm (s : Fin 512 → EReal) (W1 : Fin 32 → Fin 512 → EReal) (B1 : Fin 32 → EReal)
    (W2 : Fin 512 → Fin 32 → EReal) (B2 : Fin 512 → EReal) (q : Fin 512) :
    halfW * Ideal.tanh (halfW * ((∑ r : Fin 32, W2 q r * max ((∑ c : Fin 512, W1 r c * (s c * invHW)) + B1 r) zeroW) + B2 q))
      + halfW = gate s W1 B1 W2 B2 q := by
  unfold gate
  have h1 : ∀ r : Fin 32, (∑ c : Fin 512, W1 r c * (s c * invHW)) = ∑ c : Fin 512, s c * invHW * W1 r c :=
    fun r => Finset.sum_congr rfl fun c _ => mul_comm _ _
  have h2 : (∑ r : Fin 32, W2 q r * max ((∑ c : Fin 512, W1 r c * (s c * invHW)) + B1 r) zeroW)
      = ∑ r : Fin 32, max ((∑ c : Fin 512, s c * invHW * W1 r c) + B1 r) zeroW * W2 q r :=
    Finset.sum_congr rfl fun r _ => by rw [h1 r, mul_comm]
  rw [h2]

/-- Position k of the 28 × 28 plane of channel c of sample n, the plane read row by row. -/
def plane (x : (⟨4, ![128, 512, 28, 28]⟩ : Shape).Idx → EReal) (n : Fin 128) (c : Fin 512) (k : Fin 784) : EReal :=
  x (ix4 n c (⟨k.val / 28, by have := k.isLt; omega⟩ : Fin 28) (⟨k.val % 28, by omega⟩ : Fin 28))

/-- Row h, column w of a plane is its position 28 h + w. -/
def flat (h w : Fin 28) : Fin 784 := ⟨h.val * 28 + w.val, by have := h.isLt; have := w.isLt; omega⟩

/-- THE RESULT at sample n, channel c, position k: the entry times the sample's gate at that channel. -/
def rescaled (x : (⟨4, ![128, 512, 28, 28]⟩ : Shape).Idx → EReal) (w1 : (⟨2, ![32, 512]⟩ : Shape).Idx → EReal)
    (b1 : (⟨1, ![32]⟩ : Shape).Idx → EReal) (w2 : (⟨2, ![512, 32]⟩ : Shape).Idx → EReal)
    (b2 : (⟨1, ![512]⟩ : Shape).Idx → EReal) (n : Fin 128) (c : Fin 512) (k : Fin 784) : EReal :=
  plane x n c k * gate (fun c' => ∑ k' : Fin 784, plane x n c' k') (fun r c' => w1 (ix2 r c')) (fun r => b1 (ix1 r))
    (fun q r => w2 (ix2 q r)) (fun q => b2 (ix1 q)) c

/-- The whole result array, of the input's shape. -/
def result (x : (⟨4, ![128, 512, 28, 28]⟩ : Shape).Idx → EReal) (w1 : (⟨2, ![32, 512]⟩ : Shape).Idx → EReal)
    (b1 : (⟨1, ![32]⟩ : Shape).Idx → EReal) (w2 : (⟨2, ![512, 32]⟩ : Shape).Idx → EReal)
    (b2 : (⟨1, ![512]⟩ : Shape).Idx → EReal) : (⟨4, ![128, 512, 28, 28]⟩ : Shape).Idx → EReal :=
  fun i => rescaled x w1 b1 w2 b2 (i 0) (i 1) (flat (i 2) (i 3))

theorem result_ix4 (x : (⟨4, ![128, 512, 28, 28]⟩ : Shape).Idx → EReal) (w1 : (⟨2, ![32, 512]⟩ : Shape).Idx → EReal)
    (b1 : (⟨1, ![32]⟩ : Shape).Idx → EReal) (w2 : (⟨2, ![512, 32]⟩ : Shape).Idx → EReal)
    (b2 : (⟨1, ![512]⟩ : Shape).Idx → EReal) (n : Fin 128) (c : Fin 512) (h w : Fin 28) :
    result x w1 b1 w2 b2 (ix4 n c h w) = rescaled x w1 b1 w2 b2 n c (flat h w) := rfl

end Cert.Gate

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibUnitAxisLayout.lean ====
/-
  Layout operations around a UNIT AXIS in the middle or at the end of a rank-3 shape, and the merge of the two leading
  axes of a rank-3 shape into one, each read at an index written by coordinates. Independent of any program.

  A shape cast keeps the row-major position: `[a, b] → [a, 1, b]` and `[a, b] → [a, b, 1]` only insert a coordinate that is
  zero, and `[a, b, c] ↔ [a·b, c]` sends `(p, q, k)` to row `p·b + q`, column `k`. A broadcast along a unit axis reads the
  operand at coordinate zero of that axis. A reduction along the last axis of a rank-3 array puts the dropped coordinate back
  in the last place.
-/
import Idealize.ShloMosaic.Lib.Pipeline.Value
import Idealize.ShloMosaic.Lib.ValueIdx
import Idealize.ShloMosaic.PureOps.Reduce

noncomputable section

namespace Cert.Lib

open Idealize.ShloMosaic Idealize.ShloMosaic.ValueIdx

variable {α : Type}

/-- An `[a, b]` array cast to `[a, 1, b]` reads, at `(p, u, c)`, the operand at `(p, c)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (c : Fin b) :
    shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, c]` array cast to `[n, c]` (so `n = a·b`) reads, at row `p·b + q` and column `k`, the operand at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c)
    (hr : p.val * b + q.val < n) :
    shapeCast ⟨2, ![n, c]⟩ x h (ix2 (⟨p.val * b + q.val, hr⟩ : Fin n) k) = x (ix3 p q k) :=
  shapeCast_apply x h _ _ (by
    rw [Shape.rowMajor_val_three, Shape.rowMajor_val_two]
    rfl)

/-- An `[n, c]` array (`n = a·b`) cast to `[a, b, c]` reads, at `(p, q, k)`, the operand at row `p·b + q`, column `k`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c)
    (hr : p.val * b + q.val < n) :
    shapeCast ⟨3, ![a, b, c]⟩ x h (ix3 p q k) = x (ix2 (⟨p.val * b + q.val, hr⟩ : Fin n) k) :=
  shapeCast_apply x h _ _ (by
    rw [Shape.rowMajor_val_three, Shape.rowMajor_val_two]
    rfl)

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(p, q, k)`, the operand at `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- Over a rank-3 array reduced along its last axis, the result index `(p, q)` with `k` put back on the dropped axis is
    `(p, q, k)`. -/
theorem lift_last_ix3 {a b c : ℕ} (h : (⟨3, ![a, b, c]⟩ : Shape).Reduces [2] ⟨2, ![a, b]⟩) (p : Fin a) (q : Fin b)
    (k : Fin ((⟨3, ![a, b, c]⟩ : Shape).size 2)) :
    h.lift (ix2 p q) k = ix3 p q (⟨k.val, k.isLt⟩ : Fin c) := by
  funext d; apply Fin.ext
  fin_cases d <;> rfl

end Cert.Lib

end
-- ==== Proof.KernelBody.lean ====
/-
  What the kernel's body stores, read at one entry.

  The body holds a [784, 8, 512] block: 784 plane positions of 8 samples and 512 channels. It sums the block over the
  positions, scales the sums, multiplies the [8, 512] means by the [512, 32] first-layer weights (a matrix product into a
  zero accumulator), adds the first bias and rectifies, multiplies by the [32, 512] second-layer weights, adds the second
  bias, applies the logistic function, and multiplies every position of the block by the [8, 512] gate. At entry
  (k, p, q) this is the block's entry times the gate of sample p at channel q.
-/
import proofs.«102385_g2000102880627406_pallasbulk_1311_16_alg».proof.Proof.Gen.KernelIdeal.Skeleton
import proofs.«102385_g2000102880627406_pallasbulk_1311_16_alg».proof.Proof.GateSpec
import proofs.«102385_g2000102880627406_pallasbulk_1311_16_alg».proof.Proof.LibPlainDot
import proofs.«102385_g2000102880627406_pallasbulk_1311_16_alg».proof.Proof.LibUnitAxisLayout
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Gate

/-- The sum of a [784, 8, 512] block over its leading axis, at (p, c): the 784 entries (k, p, c). -/
theorem sumPositions_apply (x0 : FVec Ideal S784x8x512 .f32) (h : S784x8x512.Reduces [0] S8x512) (hφ : FKind.Formats .f32)
    (hacc : (0x00000000#32 : BitVec 32) = 0x00000000#32) (p : Fin 8) (c : Fin 512) :
    multiReduction .add [0] S8x512 x0 0x00000000#32 h hφ hacc (ix2 p c) = ∑ k : Fin 784, x0 (ix3 k p c) := by
  refine (Ideal.multiReduction_add_single x0 _ h hφ hacc (ix2 p c)).trans ?_
  refine Finset.sum_congr rfl fun k _ => congrArg x0 ?_
  funext d; apply Fin.ext
  fin_cases d <;> rfl

/-- A [1, 512] row broadcast over 8 rows, at (p, q). -/
theorem bias2_apply (x4 : FVec Ideal S1x512 .f32) (h1 : S1x512.ShapeCasts S1x512) (h2 : S1x512.Broadcasts S8x512)
    (p : Fin 8) (q : Fin 512) : broadcastTo S8x512 (shapeCast S1x512 x4 h1) h2 (ix2 p q) = x4 (ix2 (0 : Fin 1) q) := by
  rw [shapeCast_self]; exact broadcastTo_1b_ab_apply x4 h2 p q

/-- A [1, 32] row broadcast over 8 rows, at (p, r). -/
theorem bias1_apply (x2 : FVec Ideal S1x32 .f32) (h1 : S1x32.ShapeCasts S1x32) (h2 : S1x32.Broadcasts S8x32)
    (p : Fin 8) (r : Fin 32) : broadcastTo S8x32 (shapeCast S1x32 x2 h1) h2 (ix2 p r) = x2 (ix2 (0 : Fin 1) r) := by
  rw [shapeCast_self]; exact broadcastTo_1b_ab_apply x2 h2 p r

/-- The first matrix product, [8, 512] × [512, 32] into zeros, at (p, r). -/
theorem product1_apply (l : FVec Ideal S8x512 .f32) (x1 : FVec Ideal S512x32 .f32) (h : S512x32.ShapeCasts S512x32)
    (p : Fin 8) (r : Fin 32) :
    matmul dot_S8x512_S512x32_S8x32_1_0_0_1_n_n none l (shapeCast S512x32 x1 h) (constant (F := Ideal) S8x32 .f32 0x00000000#32) (ix2 p r)
      = ∑ c : Fin 512, l (ix2 p c) * x1 (ix2 c r) := by
  rw [shapeCast_self]
  exact Cert.Lib.matmul_zero_apply Facts₀.dot_S8x512_S512x32_S8x32_1_0_0_1_n_n_wf none l x1 p r

/-- The second matrix product, [8, 32] × [32, 512] into zeros, at (p, q). -/
theorem product2_apply (l : FVec Ideal S8x32 .f32) (x3 : FVec Ideal S32x512 .f32) (h : S32x512.ShapeCasts S32x512)
    (p : Fin 8) (q : Fin 512) :
    matmul dot_S8x32_S32x512_S8x512_1_0_0_1_n_n none l (shapeCast S32x512 x3 h) (constant (F := Ideal) S8x512 .f32 0x00000000#32) (ix2 p q)
      = ∑ r : Fin 32, l (ix2 p r) * x3 (ix2 r q) := by
  rw [shapeCast_self]
  exact Cert.Lib.matmul_zero_apply Facts₀.dot_S8x32_S32x512_S8x512_1_0_0_1_n_n_wf none l x3 p q

/-- An [8, 512] array given a leading unit axis and broadcast over 784 positions, at (k, p, q). -/
theorem overPositions_apply (g : FVec Ideal S8x512 .f32) (h1 : S8x512.ShapeCasts S1x8x512) (h2 : S1x8x512.Broadcasts S784x8x512)
    (k : Fin 784) (p : Fin 8) (q : Fin 512) :
    broadcastTo S784x8x512 (shapeCast S1x8x512 g h1) h2 (ix3 k p q) = g (ix2 p q) :=
  (Cert.Lib.broadcastTo_1bc_abc_apply _ h2 k p q).trans (shapeCast_ab_1ab_apply g h1 (0 : Fin 1) p q)

/-- The logistic function as the body writes it, 1/2 · tanh (1/2 · z) + 1/2, at one entry. -/
theorem logistic_apply (z : FVec Ideal S8x512 .f32) (i : S8x512.Idx) :
    addf (mulf (broadcast S8x512 (FloatOps.ofBits (F := Ideal) .f32 0x3F000000#32))
        (tanh (mulf (broadcast S8x512 (FloatOps.ofBits (F := Ideal) .f32 0x3F000000#32)) z)))
      (broadcast S8x512 (FloatOps.ofBits (F := Ideal) .f32 0x3F000000#32)) i
      = halfW * Ideal.tanh (halfW * z i) + halfW := rfl

/-- THE PAYLOAD AT (k, p, q): the block's entry times the gate of sample p at channel q, the gate computed from the
    block's sums over positions, the first-layer weights read transposed ([512, 32]: entry (c, r)) and the second-layer
    weights read transposed ([32, 512]: entry (r, q)). -/
theorem pay_apply (x0 : Vec Ideal S784x8x512 .f32) (x1 : Vec Ideal S512x32 .f32) (x2 : Vec Ideal S1x32 .f32)
    (x3 : Vec Ideal S32x512 .f32) (x4 : Vec Ideal S1x512 .f32) (k : Fin 784) (p : Fin 8) (q : Fin 512) :
    k0_pay1 (F := Ideal) x0 x1 x2 x3 x4 (ix3 k p q)
      = x0 (ix3 k p q) * gate (fun c => ∑ k' : Fin 784, x0 (ix3 k' p c)) (fun r c => x1 (ix2 c r))
          (fun r => x2 (ix2 (0 : Fin 1) r)) (fun q' r => x3 (ix2 r q')) (fun q' => x4 (ix2 (0 : Fin 1) q')) q := by
  unfold k0_pay1
  dsimp only
  rw [mulf_apply, shapeCast_self, overPositions_apply, logistic_apply, addf_apply, product2_apply, bias2_apply]
  simp only [maximumf_apply, addf_apply, broadcast_apply, product1_apply, bias1_apply, mulf_apply]
  unfold gate
  refine congrArg (fun z => x0 (ix3 k p q) * (halfW * Ideal.tanh (halfW * (z + x4 (ix2 (0 : Fin 1) q))) + halfW)) ?_
  refine Finset.sum_congr rfl fun r _ => ?_
  refine congrArg (fun z => max (z + x2 (ix2 (0 : Fin 1) r)) zeroW * x3 (ix2 r q)) ?_
  refine Finset.sum_congr rfl fun c _ => ?_
  refine congrArg (fun z => z * invHW * x1 (ix2 c r)) ?_
  exact sumPositions_apply x0 _ _ _ p c

/-- THE REGION'S OUTPUT as one function of the arrays the region finds: the [784, 128, 512] input A (position, sample,
    channel), the transposed weights and the biases as rows. Entry (k, n, q) is A's entry times the gate of sample n at q. -/
def regionOut (A : S784x128x512.Idx → EReal) (W1t : S512x32.Idx → EReal) (B1 : S1x32.Idx → EReal)
    (W2t : S32x512.Idx → EReal) (B2 : S1x512.Idx → EReal) : S784x128x512.Idx → EReal :=
  fun i => A i * gate (fun c => ∑ k' : Fin 784, A (ix3 k' (i 1) c)) (fun r c => W1t (ix2 c r))
    (fun r => B1 (ix2 (0 : Fin 1) r)) (fun q r => W2t (ix2 r q)) (fun q => B2 (ix2 (0 : Fin 1) q)) (i 2)

/-- A BLOCK'S PAYLOAD IS A BLOCK OF THE REGION'S OUTPUT. If the [784, 8, 512] block x0 holds samples 8t … 8t + 7 of A
    (entry y of the block is entry i of A whenever i has y's position and channel and sample 8t + y's), then the payload at
    block entry j is the region's output at the array entry i with j's position and channel and sample 8t + j's: a
    sample's gate only reads that sample's own entries, all of which are in the block. -/
theorem pay_eq_regionOut (A : S784x128x512.Idx → EReal) (W1t : S512x32.Idx → EReal) (B1 : S1x32.Idx → EReal)
    (W2t : S32x512.Idx → EReal) (B2 : S1x512.Idx → EReal) (x0 : Vec Ideal S784x8x512 .f32) (t : ℕ)
    (hx0 : ∀ (y : S784x8x512.Idx) (i : S784x128x512.Idx), (i 0).val = (y 0).val → (i 1).val = 8 * t + (y 1).val →
      (i 2).val = (y 2).val → x0 y = A i)
    (j : S784x8x512.Idx) (i : S784x128x512.Idx) (h0 : (i 0).val = (j 0).val) (h1 : (i 1).val = 8 * t + (j 1).val)
    (h2 : (i 2).val = (j 2).val) :
    k0_pay1 (F := Ideal) x0 W1t B1 W2t B2 j = regionOut A W1t B1 W2t B2 i := by
  obtain ⟨k, p, q, rfl⟩ : ∃ (k : Fin 784) (p : Fin 8) (q : Fin 512), j = ix3 k p q := ⟨j 0, j 1, j 2, eq_ix3 j⟩
  obtain ⟨k', n, q', rfl⟩ : ∃ (k' : Fin 784) (n : Fin 128) (q' : Fin 512), i = ix3 k' n q' := ⟨i 0, i 1, i 2, eq_ix3 i⟩
  obtain rfl : k' = k := Fin.ext h0
  obtain rfl : q' = q := Fin.ext h2
  have hA : ∀ (k'' : Fin 784) (c : Fin 512), x0 (ix3 k'' p c) = A (ix3 k'' n c) := fun k'' c => hx0 _ _ rfl h1 rfl
  rw [pay_apply]
  unfold regionOut
  simp only [hA]

end Cert.KernelIdeal.Body

end
-- ==== Proof.KernelBlocks.lean ====
/-
  From the blocks the grid's points write back to the whole array the region leaves.

  The grid has 16 points; point t holds samples 8t … 8t + 7: block t of the [784, 128, 512] input and of the output is
  all 784 positions, those 8 samples, all 512 channels, while the weights and biases are whole at every point. A sample's
  gate reads only that sample's own plane sums, so what point t writes back is block t of ONE function of the arrays the
  region finds, and the 16 blocks tile the output array: sample n lies in block n / 8.
-/
import proofs.«102385_g2000102880627406_pallasbulk_1311_16_alg».proof.Proof.Gen.KernelIdeal.Frame
import proofs.«102385_g2000102880627406_pallasbulk_1311_16_alg».proof.Proof.KernelBody
import Idealize.ShloMosaic.Lib.Pipeline.Value

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.Gate

variable (m : (ℓ : Loc nD τ sig) → Buf (Elt Ideal) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The index maps, decided over the 16 points: the input and the output move along the sample axis with the point, and
    the weights and biases stay at block zero. -/
theorem idx_facts : ∀ t : Fin cfg0.N,
    win0_0.index t (0 : Fin 3) = 0 ∧ win0_0.index t (1 : Fin 3) = t.val ∧ win0_0.index t (2 : Fin 3) = 0
    ∧ win0_5.index t (0 : Fin 3) = 0 ∧ win0_5.index t (1 : Fin 3) = t.val ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 ∧ True :=
  (by decide +kernel : ∀ t : Fin grid0.N, _)

/-- The input's block at point t is samples 8t … 8t + 7 of the array the region finds. -/
theorem iblk0_apply (c : Dev nD) (t : Fin cfg0.N) (y : S784x8x512.Idx) (i : S784x128x512.Idx)
    (h0 : (i 0).val = (y 0).val) (h1 : (i 1).val = 8 * t.val + (y 1).val) (h2 : (i 2).val = (y 2).val) :
    (iblk m c 0 t : Vec Ideal S784x8x512 .f32) y = (V m c main_v1 : S784x128x512.Idx → Elt Ideal .f32) i := by
  obtain ⟨e0, e1, e2, h⟩ := idx_facts t
  unfold iblk
  rw [View.read_apply]
  show V m c main_v1 _ = V m c main_v1 i
  refine congrArg (V m c main_v1) ?_
  funext a
  apply Fin.ext
  match a with
  | ⟨0, _⟩ => show win0_0.index t (0 : Fin 3) * 784 + 1 * (y 0).val = (i 0).val; rw [e0, h0]; omega
  | ⟨1, _⟩ => show win0_0.index t (1 : Fin 3) * 8 + 1 * (y 1).val = (i 1).val; rw [e1, h1]; omega
  | ⟨2, _⟩ => show win0_0.index t (2 : Fin 3) * 512 + 1 * (y 2).val = (i 2).val; rw [e2, h2]; omega

/-! The weights' and biases' blocks are their whole arrays. -/

theorem iblk1_eq (c : Dev nD) (t : Fin cfg0.N) :
    (iblk m c 1 t : Vec Ideal S512x32 .f32) = (V m c main_v2 : S512x32.Idx → Elt Ideal .f32) := by
  obtain ⟨-, -, -, -, -, -, e0, e1, h⟩ := idx_facts t
  funext y
  unfold iblk
  rw [View.read_apply]
  show V m c main_v2 _ = V m c main_v2 y
  refine congrArg (V m c main_v2) ?_
  funext a
  apply Fin.ext
  match a with
  | ⟨0, _⟩ => show win0_1.index t (0 : Fin 2) * 512 + 1 * (y 0).val = (y 0).val; rw [e0]; omega
  | ⟨1, _⟩ => show win0_1.index t (1 : Fin 2) * 32 + 1 * (y 1).val = (y 1).val; rw [e1]; omega

theorem iblk2_eq (c : Dev nD) (t : Fin cfg0.N) :
    (iblk m c 2 t : Vec Ideal S1x32 .f32) = (V m c main_v4 : S1x32.Idx → Elt Ideal .f32) := by
  obtain ⟨-, -, -, -, -, -, -, -, e0, e1, h⟩ := idx_facts t
  funext y
  unfold iblk
  rw [View.read_apply]
  show V m c main_v4 _ = V m c main_v4 y
  refine congrArg (V m c main_v4) ?_
  funext a
  apply Fin.ext
  match a with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

theorem iblk3_eq (c : Dev nD) (t : Fin cfg0.N) :
    (iblk m c 3 t : Vec Ideal S32x512 .f32) = (V m c main_v3 : S32x512.Idx → Elt Ideal .f32) := by
  obtain ⟨-, -, -, -, -, -, -, -, -, -, e0, e1, h⟩ := idx_facts t
  funext y
  unfold iblk
  rw [View.read_apply]
  show V m c main_v3 _ = V m c main_v3 y
  refine congrArg (V m c main_v3) ?_
  funext a
  apply Fin.ext
  match a with
  | ⟨0, _⟩ => show win0_3.index t (0 : Fin 2) * 32 + 1 * (y 0).val = (y 0).val; rw [e0]; omega
  | ⟨1, _⟩ => show win0_3.index t (1 : Fin 2) * 512 + 1 * (y 1).val = (y 1).val; rw [e1]; omega

theorem iblk4_eq (c : Dev nD) (t : Fin cfg0.N) :
    (iblk m c 4 t : Vec Ideal S1x512 .f32) = (V m c main_v5 : S1x512.Idx → Elt Ideal .f32) := by
  obtain ⟨-, -, -, -, -, -, -, -, -, -, -, -, e0, e1, h⟩ := idx_facts t
  funext y
  unfold iblk
  rw [View.read_apply]
  show V m c main_v5 _ = V m c main_v5 y
  refine congrArg (V m c main_v5) ?_
  funext a
  apply Fin.ext
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

/-- WHAT POINT t WRITES BACK is block t of the region's output function of the arrays the region finds. -/
theorem flushed_eq (c : Dev nD) (t : Fin cfg0.N) :
    (dats m 0 c).flushed 5 t = ((cfg0.win 5).blk t).view.read (Elt Ideal)
      (regionOut (V m c main_v1) (V m c main_v2) (V m c main_v4) (V m c main_v3) (V m c main_v5)) := by
  show (cfg0.win 5).cut (grid0.coords t) ((dats m 0 c).after 5 t) = _
  rw [after0_5]
  unfold out0_5
  rw [View.canon_unit_zero zeros3]
  simp only [View.ld_unit_zero (S := S784x8x512) zeros3, View.ld_unit_zero (S := S512x32) zeros2,
    View.ld_unit_zero (S := S1x32) zeros2, View.ld_unit_zero (S := S32x512) zeros2, View.ld_unit_zero (S := S1x512) zeros2]
  rw [iblk1_eq, iblk2_eq, iblk3_eq, iblk4_eq]
  obtain ⟨-, -, -, e0, e1, e2, h⟩ := idx_facts t
  funext j
  show k0_pay1 (F := Ideal) (iblk m c 0 t) (V m c main_v2) (V m c main_v4) (V m c main_v3) (V m c main_v5) j
    = regionOut (V m c main_v1) (V m c main_v2) (V m c main_v4) (V m c main_v3) (V m c main_v5) (((cfg0.win 5).blk t).view.emb j)
  refine pay_eq_regionOut _ _ _ _ _ (iblk m c 0 t) t.val (fun y i h0 h1 h2 => iblk0_apply m c t y i h0 h1 h2) j _ ?_ ?_ ?_
  · show win0_5.index t (0 : Fin 3) * 784 + 1 * (j 0).val = (j 0).val; rw [e0]; omega
  · show win0_5.index t (1 : Fin 3) * 8 + 1 * (j 1).val = 8 * t.val + (j 1).val; rw [e1]; omega
  · show win0_5.index t (2 : Fin 3) * 512 + 1 * (j 2).val = (j 2).val; rw [e2]; omega

/-- An entry of the output array is in point t's block iff each coordinate is in the block's range on its axis. -/
theorem mem_blk (t : Fin cfg0.N) (i : S784x128x512.Idx) :
    i ∈ ((cfg0.win 5).blk t).view.set ↔ ∀ a : Fin 3, win0_5.index t a * S784x8x512.size a ≤ (i a).val
      ∧ (i a).val < win0_5.index t a * S784x8x512.size a + S784x8x512.size a := by
  show i ∈ ((View.whole main_v6).slice (win0_5.rect t)).set ↔ _
  rw [View.set_slice_whole, Rect.mem_set_unit]
  exact Iff.rfl

/-- Every entry is in some point's block: sample n is in block n / 8. -/
theorem cover (i : S784x128x512.Idx) :
    ∃ t : Fin cfg0.N, (cfg0.win 5).flush t = true ∧ i ∈ ((cfg0.win 5).blk t).view.set := by
  have hi0 : (i 0).val < 784 := (i 0).isLt
  have hi1 : (i 1).val < 128 := (i 1).isLt
  have hi2 : (i 2).val < 512 := (i 2).isLt
  have hN : cfg0.N = 16 := N_0
  obtain ⟨t, ht⟩ : ∃ t : Fin cfg0.N, t.val = (i 1).val / 8 := ⟨⟨(i 1).val / 8, by rw [hN]; omega⟩, rfl⟩
  obtain ⟨-, -, -, e0, e1, e2, h⟩ := idx_facts t
  refine ⟨t, flush0_5 t, ?_⟩
  rw [mem_blk]
  intro a
  match a with
  | ⟨0, _⟩ =>
    show win0_5.index t (0 : Fin 3) * 784 ≤ (i 0).val ∧ (i 0).val < win0_5.index t (0 : Fin 3) * 784 + 784
    rw [e0]; omega
  | ⟨1, _⟩ =>
    show win0_5.index t (1 : Fin 3) * 8 ≤ (i 1).val ∧ (i 1).val < win0_5.index t (1 : Fin 3) * 8 + 8
    rw [e1, ht]; omega
  | ⟨2, _⟩ =>
    show win0_5.index t (2 : Fin 3) * 512 ≤ (i 2).val ∧ (i 2).val < win0_5.index t (2 : Fin 3) * 512 + 512
    rw [e2]; omega

/-- THE OUTPUT ARRAY AFTER THE REGION is the region's output function of the arrays the region finds. -/
theorem final (c : Dev nD) : (dats m 0 c).arrAt 5 cfg0.N
    = regionOut (V m c main_v1) (V m c main_v2) (V m c main_v4) (V m c main_v3) (V m c main_v5) :=
  (dats m 0 c).arrAt_eq_of_cover 5 _ (fun t _ => flushed_eq m c t) cover

end Cert.KernelIdeal.Blocks

end
-- ==== Proof.KernelHost.lean ====
/-
  The kernel's program around its region, read back as one function of the arguments.

  Before the region the input [128, 512, 28, 28] is transposed to [28, 28, 128, 512] and flattened to [784, 128, 512]:
  position k = 28 h + w comes first, then the sample, then the channel, so entry (k, n, c) is the input's (n, c, k / 28, k % 28).
  The two weight matrices are transposed and the two biases become one-row matrices. After the region the output is unflattened
  and transposed back, so the result's entry (n, c, h, w) is the region's (28 h + w, n, c). Put together, the result is the
  rescaled input of the specification.
-/
import proofs.«102385_g2000102880627406_pallasbulk_1311_16_alg».proof.Proof.Gen.KernelIdeal.Frame
import proofs.«102385_g2000102880627406_pallasbulk_1311_16_alg».proof.Proof.KernelBlocks
import Idealize.ShloMosaic.Lib.StableHlo.Run
import Idealize.ShloMosaic.Lib.ValueLayout
import Idealize.ShloMosaic.Lib.Tactic

set_option maxRecDepth 16384

noncomputable section

namespace Cert.KernelIdeal.Host

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.KernelIdeal.Blocks Cert.Gate

/-! ## The two changes of layout, read at an entry -/

/-- The input transposed to positions-first and flattened: entry (k, n, q) is position k of plane (n, q). -/
theorem positionsFirst_apply (x : S128x512x28x28.Idx → EReal) (htr : S128x512x28x28.Transposes [2, 3, 0, 1] S28x28x128x512)
    (hsc : S28x28x128x512.ShapeCasts S784x128x512) (k : Fin 784) (n : Fin 128) (q : Fin 512) :
    shapeCast S784x128x512 (transpose S28x28x128x512 [2, 3, 0, 1] x htr) hsc (ix3 k n q) = plane x n q k := by
  have hk : k.val < 784 := k.isLt
  refine (shapeCast_apply _ hsc (ix3 k n q)
    (ix4 (⟨k.val / 28, by omega⟩ : Fin 28) (⟨k.val % 28, by omega⟩ : Fin 28) n q) ?_).trans ?_
  · rw [Shape.rowMajor_val_four, Shape.rowMajor_val_three]
    show ((k.val / 28 * 28 + k.val % 28) * 128 + n.val) * 512 + q.val = (k.val * 128 + n.val) * 512 + q.val
    omega
  · exact transpose_apply _ x htr _ (ix4 n q (⟨k.val / 28, by omega⟩ : Fin 28) (⟨k.val % 28, by omega⟩ : Fin 28))
      fun b => match b with | ⟨0, _⟩ => rfl | ⟨1, _⟩ => rfl | ⟨2, _⟩ => rfl | ⟨3, _⟩ => rfl

/-- A positions-first array unflattened and transposed back: entry (n, q, h, w) is its entry (28 h + w, n, q). -/
theorem planesBack_apply (G : S784x128x512.Idx → EReal) (hsc : S784x128x512.ShapeCasts S28x28x128x512)
    (htr : S28x28x128x512.Transposes [2, 3, 0, 1] S128x512x28x28) (n : Fin 128) (q : Fin 512) (h w : Fin 28) :
    transpose S128x512x28x28 [2, 3, 0, 1] (shapeCast S28x28x128x512 G hsc) htr (ix4 n q h w) = G (ix3 (flat h w) n q) := by
  refine (transpose_apply _ _ htr (ix4 n q h w) (ix4 h w n q)
    fun b => match b with | ⟨0, _⟩ => rfl | ⟨1, _⟩ => rfl | ⟨2, _⟩ => rfl | ⟨3, _⟩ => rfl).trans ?_
  refine shapeCast_apply G hsc (ix4 h w n q) (ix3 (flat h w) n q) ?_
  rw [Shape.rowMajor_val_three, Shape.rowMajor_val_four]
  rfl

/-- THE REGION'S OUTPUT OF THE PREPARED ARGUMENTS at (k, n, q) is the specification's rescaled entry: the prepared input's
    entries are the planes' positions, the transposed weights read back as the weights, the one-row biases as the biases. -/
theorem regionOut_prepared (x : S128x512x28x28.Idx → EReal) (w1 : S32x512.Idx → EReal) (b1 : S32.Idx → EReal)
    (w2 : S512x32.Idx → EReal) (b2 : S512.Idx → EReal)
    (htr0 : S128x512x28x28.Transposes [2, 3, 0, 1] S28x28x128x512) (hsc0 : S28x28x128x512.ShapeCasts S784x128x512)
    (htr1 : S32x512.Transposes [1, 0] S512x32) (hsc2 : S32.ShapeCasts S1x32)
    (htr3 : S512x32.Transposes [1, 0] S32x512) (hsc4 : S512.ShapeCasts S1x512)
    (k : Fin 784) (n : Fin 128) (q : Fin 512) :
    regionOut (shapeCast S784x128x512 (transpose S28x28x128x512 [2, 3, 0, 1] x htr0) hsc0) (transpose S512x32 [1, 0] w1 htr1)
        (shapeCast S1x32 b1 hsc2) (transpose S32x512 [1, 0] w2 htr3) (shapeCast S1x512 b2 hsc4) (ix3 k n q)
      = rescaled x w1 b1 w2 b2 n q k := by
  show shapeCast S784x128x512 (transpose S28x28x128x512 [2, 3, 0, 1] x htr0) hsc0 (ix3 k n q)
      * gate (fun c => ∑ k' : Fin 784, shapeCast S784x128x512 (transpose S28x28x128x512 [2, 3, 0, 1] x htr0) hsc0 (ix3 k' n c))
          (fun r c => transpose S512x32 [1, 0] w1 htr1 (ix2 c r)) (fun r => shapeCast S1x32 b1 hsc2 (ix2 (0 : Fin 1) r))
          (fun q' r => transpose S32x512 [1, 0] w2 htr3 (ix2 r q')) (fun q' => shapeCast S1x512 b2 hsc4 (ix2 (0 : Fin 1) q')) q
    = plane x n q k * gate (fun c' => ∑ k' : Fin 784, plane x n c' k') (fun r c' => w1 (ix2 r c')) (fun r => b1 (ix1 r))
          (fun q' r => w2 (ix2 q' r)) (fun q' => b2 (ix1 q')) q
  have h0 : ∀ (k' : Fin 784) (c : Fin 512),
      shapeCast S784x128x512 (transpose S28x28x128x512 [2, 3, 0, 1] x htr0) hsc0 (ix3 k' n c) = plane x n c k' :=
    fun k' c => positionsFirst_apply x htr0 hsc0 k' n c
  have h1 : ∀ (r : Fin 32) (c : Fin 512), transpose S512x32 [1, 0] w1 htr1 (ix2 c r) = w1 (ix2 r c) :=
    fun r c => transpose_ix2_apply w1 htr1 c r
  have h2 : ∀ r : Fin 32, shapeCast S1x32 b1 hsc2 (ix2 (0 : Fin 1) r) = b1 (ix1 r) :=
    fun r => shapeCast_a_1a_apply b1 hsc2 (0 : Fin 1) r
  have h3 : ∀ (q' : Fin 512) (r : Fin 32), transpose S32x512 [1, 0] w2 htr3 (ix2 r q') = w2 (ix2 q' r) :=
    fun q' r => transpose_ix2_apply w2 htr3 r q'
  have h4 : ∀ q' : Fin 512, shapeCast S1x512 b2 hsc4 (ix2 (0 : Fin 1) q') = b2 (ix1 q') :=
    fun q' => shapeCast_a_1a_apply b2 hsc4 (0 : Fin 1) q'
  simp only [h0, h1, h2, h3, h4]

variable (m : (ℓ : Loc nD τ sig) → Buf (Elt Ideal) ℓ) (ρ : Dev nD → PrngReg)

/-! ## The arrays the region finds, as terms of the arguments -/

theorem found_v1 (c : Dev nD) : (V m c main_v1 : S784x128x512.Idx → Elt Ideal .f32)
    = shapeCast S784x128x512 (transpose S28x28x128x512 [2, 3, 0, 1] (m ((c : Thread nD τ).loc main_arg0))
        Facts₀.transposes_S128x512x28x28_S28x28x128x512_2_3_0_1) Facts₀.shapeCasts_S28x28x128x512_S784x128x512 := by
  show StableHlo.after hostOps0 (fun b => m (c, b)) (Proc.devRef .tc main_v1) = _
  after_results
  rfl

theorem found_v2 (c : Dev nD) : (V m c main_v2 : S512x32.Idx → Elt Ideal .f32)
    = transpose S512x32 [1, 0] (m ((c : Thread nD τ).loc main_arg1)) Facts₀.transposes_S32x512_S512x32_1_0 := by
  show StableHlo.after hostOps0 (fun b => m (c, b)) (Proc.devRef .tc main_v2) = _
  after_results

theorem found_v3 (c : Dev nD) : (V m c main_v3 : S32x512.Idx → Elt Ideal .f32)
    = transpose S32x512 [1, 0] (m ((c : Thread nD τ).loc main_arg3)) Facts₀.transposes_S512x32_S32x512_1_0 := by
  show StableHlo.after hostOps0 (fun b => m (c, b)) (Proc.devRef .tc main_v3) = _
  after_results

theorem found_v4 (c : Dev nD) : (V m c main_v4 : S1x32.Idx → Elt Ideal .f32)
    = shapeCast S1x32 (m ((c : Thread nD τ).loc main_arg2)) Facts₀.shapeCasts_S32_S1x32 := by
  show StableHlo.after hostOps0 (fun b => m (c, b)) (Proc.devRef .tc main_v4) = _
  after_results
  rfl

theorem found_v5 (c : Dev nD) : (V m c main_v5 : S1x512.Idx → Elt Ideal .f32)
    = shapeCast S1x512 (m ((c : Thread nD τ).loc main_arg4)) Facts₀.shapeCasts_S512_S1x512 := by
  show StableHlo.after hostOps0 (fun b => m (c, b)) (Proc.devRef .tc main_v5) = _
  after_results
  rfl

/-! ## The result -/

/-- The output array as the lines after the region find it is the region's output function (the blocks' cover). -/
theorem region_array (c : Dev nD) :
    (Pipeline.withArrays (cfgs 0).spec c (V0 m c) (fun w => (dats m 0 c).arrAt w (cfgs 0).N) (Proc.devRef .tc main_v6)
        : S784x128x512.Idx → Elt Ideal .f32)
      = regionOut (V m c main_v1) (V m c main_v2) (V m c main_v4) (V m c main_v3) (V m c main_v5) :=
  (Pipeline.withArrays_arr spec0 launch0.win.arr_inj c _ _ 5).trans (final m c)

/-- The program's result as the two lines after the region compute it from that array. -/
theorem tail_term (c : Dev nD) :
    (Pipeline.afterTail₀ cfgs (dats m) 0 (V0 m) [hostOps1] c main_v8 : S128x512x28x28.Idx → Elt Ideal .f32)
      = transpose S128x512x28x28 [2, 3, 0, 1]
          (shapeCast S28x28x128x512
            (Pipeline.withArrays (cfgs 0).spec c (V0 m c) (fun w => (dats m 0 c).arrAt w (cfgs 0).N) (Proc.devRef .tc main_v6))
            Facts₀.shapeCasts_S784x128x512_S28x28x128x512)
          Facts₀.transposes_S28x28x128x512_S128x512x28x28_2_3_0_1 := by
  unfold Pipeline.afterTail₀
  show StableHlo.after hostOps1 _ (Proc.devRef .tc main_v8) = _
  after_results
  rfl

/-- THE PROGRAM'S RESULT is the specification's result of the five arguments. -/
theorem result_eq (c : Dev nD) :
    (Pipeline.afterTail₀ cfgs (dats m) 0 (V0 m) [hostOps1] c main_v8 : S128x512x28x28.Idx → Elt Ideal .f32)
      = result (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_term, region_array, found_v1, found_v2, found_v3, found_v4, found_v5]
  funext i
  obtain ⟨n, q, h, w, rfl⟩ : ∃ (n : Fin 128) (q : Fin 512) (h w : Fin 28), i = ix4 n q h w := ⟨i 0, i 1, i 2, i 3, eq_ix4 i⟩
  rw [planesBack_apply, regionOut_prepared, result_ix4]

/-- THE RUN, READ: every weakly fair execution ends with the result array at the specification's result of the arguments,
    and the arguments as they were. -/
theorem run : θ_run defs (onTc (τ := τ) (main (F := Ideal))) ⟨m, fun _ => 0, ρ⟩ fun r => ∀ c : Dev nD,
      r.2.mem ((c : Thread nD τ).loc main_v8)
        = result (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Host

end
-- ==== Proof.LibRank3AxisSums.lean ====
/-
  A float sum of a rank-3 array along its first or its last axis, read at an entry. Independent of any program.

  Over the extended reals a sum reduction along one axis of an [a, b, c] array is, at each entry of the result, the plain
  finite sum of the array's entries along that axis: along the last axis the result's entry (p, q) is the sum over k of the
  array's (p, q, k); along the first axis the result's entry (p, q) is the sum over k of the array's (k, p, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- At the ideal values a float `vector.multi_reduction <add>` of an `[a, b, n]` array over its LAST axis, into the neutral
    accumulator, read at `(p, q)`, is the sum over `k : Fin n` of the array at `(p, q, k)`. -/
theorem multiReduction_add_last_apply {a b n : ℕ} {φ : FTy} (x : FVec Ideal ⟨3, ![a, b, n]⟩ φ) (acc : BitVec φ.bits)
    (h : (⟨3, ![a, b, n]⟩ : Shape).Reduces [2] ⟨2, ![a, b]⟩) (hφ : FKind.Formats φ) (hacc : acc = FKind.add.neutral φ hφ)
    (p : Fin a) (q : Fin b) :
    multiReduction .add [2] ⟨2, ![a, b]⟩ x acc h hφ hacc (ix2 p q) = ∑ k : Fin n, x (ix3 p q k) := by
  refine (Ideal.multiReduction_add_single x acc h hφ hacc (ix2 p q)).trans ?_
  refine Finset.sum_congr rfl fun k _ => congrArg x ?_
  funext d; apply Fin.ext
  fin_cases d <;> rfl

/-- At the ideal values a float `vector.multi_reduction <add>` of an `[n, a, b]` array over its FIRST axis, into the neutral
    accumulator, read at `(p, q)`, is the sum over `k : Fin n` of the array at `(k, p, q)`. -/
theorem multiReduction_add_first_apply {n a b : ℕ} {φ : FTy} (x : FVec Ideal ⟨3, ![n, a, b]⟩ φ) (acc : BitVec φ.bits)
    (h : (⟨3, ![n, a, b]⟩ : Shape).Reduces [0] ⟨2, ![a, b]⟩) (hφ : FKind.Formats φ) (hacc : acc = FKind.add.neutral φ hφ)
    (p : Fin a) (q : Fin b) :
    multiReduction .add [0] ⟨2, ![a, b]⟩ x acc h hφ hacc (ix2 p q) = ∑ k : Fin n, x (ix3 k p q) := by
  refine (Ideal.multiReduction_add_single x acc h hφ hacc (ix2 p q)).trans ?_
  refine Finset.sum_congr rfl fun k _ => congrArg x ?_
  funext d; apply Fin.ext
  fin_cases d <;> rfl

end Cert.Lib

end
-- ==== Proof.RefBody.lean ====
/-
  What the reference's body stores, read at one entry.

  The reference holds a [2, 512, 784] block: 2 samples, 512 channels, 784 plane positions. It sums the block over the
  positions and scales the sums; forms, for each sample, hidden unit and channel, the product of a first-layer weight with a
  mean and sums the products over the channels; adds the first bias and rectifies; does the same with the second-layer
  weights over the hidden units; adds the second bias, applies the logistic function, and multiplies every position by the
  [2, 512] gate. The products are written weight first: multiplication of extended reals commutes, so this is the same gate.
-/
import proofs.«102385_g2000102880627406_pallasbulk_1311_16_alg».proof.Proof.Gen.ReferenceIdeal.Skeleton
import proofs.«102385_g2000102880627406_pallasbulk_1311_16_alg».proof.Proof.GateSpec
import proofs.«102385_g2000102880627406_pallasbulk_1311_16_alg».proof.Proof.LibUnitAxisLayout
import proofs.«102385_g2000102880627406_pallasbulk_1311_16_alg».proof.Proof.LibRank3AxisSums
import Idealize.ShloMosaic.Lib.ValueLayout
import Idealize.ShloMosaic.Lib.Pipeline.Value
import Idealize.ShloMosaic.PureOps.Ideal.Laws

noncomputable section

namespace Cert.ReferenceIdeal.Body

open Idealize.ShloMosaic Idealize.ShloMosaic.ValueIdx Cert.ReferenceIdeal Cert.ReferenceIdeal.Gen Cert.Gate

/-- A [1, 512] row broadcast over 2 rows, at (p, q). -/
theorem bias2_apply (x4 : FVec Ideal S1x512 .f32) (h1 : S1x512.ShapeCasts S1x512) (h2 : S1x512.Broadcasts S2x512)
    (p : Fin 2) (q : Fin 512) : broadcastTo S2x512 (shapeCast S1x512 x4 h1) h2 (ix2 p q) = x4 (ix2 (0 : Fin 1) q) := by
  rw [shapeCast_self]; exact broadcastTo_1b_ab_apply x4 h2 p q

/-- A [1, 32] row broadcast over 2 rows, at (p, r). -/
theorem bias1_apply (x2 : FVec Ideal S1x32 .f32) (h1 : S1x32.ShapeCasts S1x32) (h2 : S1x32.Broadcasts S2x32)
    (p : Fin 2) (r : Fin 32) : broadcastTo S2x32 (shapeCast S1x32 x2 h1) h2 (ix2 p r) = x2 (ix2 (0 : Fin 1) r) := by
  rw [shapeCast_self]; exact broadcastTo_1b_ab_apply x2 h2 p r

/-- The first layer's products: the [32, 512] weights against the [2, 512] means, at (p, r, c). -/
theorem products1_apply (w1 : FVec Ideal S32x512 .f32) (pl : FVec Ideal S2x512 .f32) (h1 : S32x512.ShapeCasts S1x32x512)
    (h2 : S2x512.ShapeCasts S2x1x512) (h3 : S1x32x512.Broadcasts S2x32x512) (h4 : S2x1x512.Broadcasts S2x32x512)
    (p : Fin 2) (r : Fin 32) (c : Fin 512) :
    mulf (broadcastTo S2x32x512 (shapeCast S1x32x512 w1 h1) h3) (broadcastTo S2x32x512 (shapeCast S2x1x512 pl h2) h4) (ix3 p r c)
      = w1 (ix2 r c) * pl (ix2 p c) := by
  rw [mulf_apply]
  refine congrArg₂ (fun u v : EReal => u * v) ?_ ?_
  · exact (Cert.Lib.broadcastTo_1bc_abc_apply _ h3 p r c).trans (shapeCast_ab_1ab_apply w1 h1 (0 : Fin 1) r c)
  · exact (Cert.Lib.broadcastTo_a1c_abc_apply _ h4 p r c).trans (Cert.Lib.shapeCast_ab_a1b_apply pl h2 p (0 : Fin 1) c)

/-- The second layer's products: the [512, 32] weights against the [2, 32] hidden units, at (p, q, r). -/
theorem products2_apply (w2 : FVec Ideal S512x32 .f32) (hd : FVec Ideal S2x32 .f32) (h1 : S512x32.ShapeCasts S1x512x32)
    (h2 : S2x32.ShapeCasts S2x1x32) (h3 : S1x512x32.Broadcasts S2x512x32) (h4 : S2x1x32.Broadcasts S2x512x32)
    (p : Fin 2) (q : Fin 512) (r : Fin 32) :
    mulf (broadcastTo S2x512x32 (shapeCast S1x512x32 w2 h1) h3) (broadcastTo S2x512x32 (shapeCast S2x1x32 hd h2) h4) (ix3 p q r)
      = w2 (ix2 q r) * hd (ix2 p r) := by
  rw [mulf_apply]
  refine congrArg₂ (fun u v : EReal => u * v) ?_ ?_
  · exact (Cert.Lib.broadcastTo_1bc_abc_apply _ h3 p q r).trans (shapeCast_ab_1ab_apply w2 h1 (0 : Fin 1) q r)
  · exact (Cert.Lib.broadcastTo_a1c_abc_apply _ h4 p q r).trans (Cert.Lib.shapeCast_ab_a1b_apply hd h2 p (0 : Fin 1) r)

/-- The logistic function as the body writes it, 1/2 · tanh (1/2 · z) + 1/2, at one entry. -/
theorem logistic_apply (z : FVec Ideal S2x512 .f32) (i : S2x512.Idx) :
    addf (mulf (broadcast S2x512 (FloatOps.ofBits (F := Ideal) .f32 0x3F000000#32))
        (tanh (mulf (broadcast S2x512 (FloatOps.ofBits (F := Ideal) .f32 0x3F000000#32)) z)))
      (broadcast S2x512 (FloatOps.ofBits (F := Ideal) .f32 0x3F000000#32)) i
      = halfW * Ideal.tanh (halfW * z i) + halfW := rfl

/-- THE GATE PAYLOAD AT (p, q): the gate of sample p at channel q, from the block's sums over positions. -/
theorem gate_apply (x0 : Vec Ideal S2x512x784 .f32) (w1 : Vec Ideal S32x512 .f32) (b1 : Vec Ideal S1x32 .f32)
    (w2 : Vec Ideal S512x32 .f32) (b2 : Vec Ideal S1x512 .f32) (p : Fin 2) (q : Fin 512) :
    k0_pay2 (F := Ideal) x0 w1 b1 w2 b2 (ix2 p q)
      = gate (fun c => ∑ k : Fin 784, x0 (ix3 p c k)) (fun r c => w1 (ix2 r c)) (fun r => b1 (ix2 (0 : Fin 1) r))
          (fun q' r => w2 (ix2 q' r)) (fun q' => b2 (ix2 (0 : Fin 1) q')) q := by
  unfold k0_pay2
  try dsimp only
  rw [shapeCast_self x0, logistic_apply, addf_apply, bias2_apply]
  refine Eq.trans ?_ (gate_comm _ _ _ _ _ q)
  refine congrArg (fun z => halfW * Ideal.tanh (halfW * (z + b2 (ix2 (0 : Fin 1) q))) + halfW) ?_
  refine (Cert.Lib.multiReduction_add_last_apply _ _ _ _ _ p q).trans ?_
  refine Finset.sum_congr rfl fun r _ => ?_
  refine (products2_apply _ _ _ _ _ _ p q r).trans ?_
  refine congrArg (fun z => w2 (ix2 q r) * z) ?_
  rw [maximumf_apply, addf_apply, broadcast_apply, bias1_apply]
  refine congrArg (fun z => max (z + b1 (ix2 (0 : Fin 1) r)) zeroW) ?_
  refine (Cert.Lib.multiReduction_add_last_apply _ _ _ _ _ p r).trans ?_
  refine Finset.sum_congr rfl fun c _ => ?_
  refine (products1_apply _ _ _ _ _ _ p r c).trans ?_
  refine congrArg (fun z => w1 (ix2 r c) * z) ?_
  rw [mulf_apply, broadcast_apply]
  refine congrArg (fun z => z * invHW) ?_
  exact Cert.Lib.multiReduction_add_last_apply _ _ _ _ _ p c

/-- THE STORED PAYLOAD AT (p, q, k): the block's entry times the gate's entry (p, q). -/
theorem scale_apply (g : FVec Ideal S2x512 .f32) (x0 : Vec Ideal S2x512x784 .f32) (p : Fin 2) (q : Fin 512) (k : Fin 784) :
    k0_pay1 (F := Ideal) g x0 (ix3 p q k) = x0 (ix3 p q k) * g (ix2 p q) := by
  unfold k0_pay1
  try dsimp only
  rw [mulf_apply, shapeCast_self]
  refine congrArg (fun z => x0 (ix3 p q k) * z) ?_
  exact (Cert.Lib.broadcastTo_ab1_abc_apply _ _ p q k).trans (Cert.Lib.shapeCast_ab_ab1_apply g _ p q (0 : Fin 1))

/-- THE REGION'S OUTPUT as one function of the arrays the region finds: the [128, 512, 784] input A (sample, channel,
    position), the weights and the biases as rows. Entry (n, q, k) is A's entry times the gate of sample n at q. -/
def regionOut (A : S128x512x784.Idx → EReal) (W1 : S32x512.Idx → EReal) (B1 : S1x32.Idx → EReal)
    (W2 : S512x32.Idx → EReal) (B2 : S1x512.Idx → EReal) : S128x512x784.Idx → EReal :=
  fun i => A i * gate (fun c => ∑ k' : Fin 784, A (ix3 (i 0) c k')) (fun r c => W1 (ix2 r c))
    (fun r => B1 (ix2 (0 : Fin 1) r)) (fun q r => W2 (ix2 q r)) (fun q => B2 (ix2 (0 : Fin 1) q)) (i 1)

/-- A BLOCK'S PAYLOAD IS A BLOCK OF THE REGION'S OUTPUT. If the [2, 512, 784] block x0 holds samples 2t and 2t + 1 of A,
    the payload at block entry j is the region's output at the array entry with j's channel and position and sample 2t + j's:
    a sample's gate only reads that sample's own entries, all of which are in the block. -/
theorem pay_eq_regionOut (A : S128x512x784.Idx → EReal) (W1 : S32x512.Idx → EReal) (B1 : S1x32.Idx → EReal)
    (W2 : S512x32.Idx → EReal) (B2 : S1x512.Idx → EReal) (x0 : Vec Ideal S2x512x784 .f32) (t : ℕ)
    (hx0 : ∀ (y : S2x512x784.Idx) (i : S128x512x784.Idx), (i 0).val = 2 * t + (y 0).val → (i 1).val = (y 1).val →
      (i 2).val = (y 2).val → x0 y = A i)
    (j : S2x512x784.Idx) (i : S128x512x784.Idx) (h0 : (i 0).val = 2 * t + (j 0).val) (h1 : (i 1).val = (j 1).val)
    (h2 : (i 2).val = (j 2).val) :
    k0_pay1 (F := Ideal) (k0_pay2 (F := Ideal) x0 W1 B1 W2 B2) x0 j = regionOut A W1 B1 W2 B2 i := by
  obtain ⟨p, q, k, rfl⟩ : ∃ (p : Fin 2) (q : Fin 512) (k : Fin 784), j = ix3 p q k := ⟨j 0, j 1, j 2, eq_ix3 j⟩
  obtain ⟨n, q', k', rfl⟩ : ∃ (n : Fin 128) (q' : Fin 512) (k' : Fin 784), i = ix3 n q' k' := ⟨i 0, i 1, i 2, eq_ix3 i⟩
  obtain rfl : q' = q := Fin.ext h1
  obtain rfl : k' = k := Fin.ext h2
  have hA : ∀ (c : Fin 512) (k'' : Fin 784), x0 (ix3 p c k'') = A (ix3 n c k'') := fun c k'' => hx0 _ _ h0 rfl rfl
  rw [scale_apply, gate_apply]
  unfold regionOut
  simp only [hA]

end Cert.ReferenceIdeal.Body

end
-- ==== Proof.RefBlocks.lean ====
/-
  From the blocks the grid's points write back to the whole array the reference's region leaves.

  The grid has 64 points; point t holds samples 2t and 2t + 1: block t of the [128, 512, 784] input and of the output is those
  2 samples, all 512 channels and all 784 positions, while the weights and biases are whole at every point. A sample's gate
  reads only that sample's own plane sums, so what point t writes back is block t of ONE function of the arrays the region
  finds, and the 64 blocks tile the output array: sample n lies in block n / 2.
-/
import proofs.«102385_g2000102880627406_pallasbulk_1311_16_alg».proof.Proof.Gen.ReferenceIdeal.Frame
import proofs.«102385_g2000102880627406_pallasbulk_1311_16_alg».proof.Proof.RefBody
import Idealize.ShloMosaic.Lib.Pipeline.Value

set_option maxRecDepth 16384

noncomputable section

namespace Cert.ReferenceIdeal.Blocks

open Idealize.ShloMosaic Idealize.ShloMosaic.TcCoe Idealize.SL.Sem Idealize.ShloMosaic.ValueIdx
open Idealize.ShloMosaic.Pipeline (Dat)
open Cert.ReferenceIdeal Cert.ReferenceIdeal.Gen Cert.ReferenceIdeal.Body Cert.Gate

variable (m : (ℓ : Loc nD τ sig) → Buf (Elt Ideal) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The index maps, decided over the 64 points: the input and the output move along the sample axis with the point, and
    the weights and biases stay at block zero. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 ∧ True :=
  (by decide +kernel : ∀ t : Fin grid0.N, _)

/-- The input's block at point t is samples 2t and 2t + 1 of the array the region finds. -/
theorem iblk0_apply (c : Dev nD) (t : Fin cfg0.N) (y : S2x512x784.Idx) (i : S128x512x784.Idx)
    (h0 : (i 0).val = 2 * t.val + (y 0).val) (h1 : (i 1).val = (y 1).val) (h2 : (i 2).val = (y 2).val) :
    (iblk m c 0 t : Vec Ideal S2x512x784 .f32) y = (V m c main_v0 : S128x512x784.Idx → Elt Ideal .f32) i := by
  obtain ⟨e0, e1, e2, h⟩ := idx_facts t
  unfold iblk
  rw [View.read_apply]
  show V m c main_v0 _ = V m c main_v0 i
  refine congrArg (V m c main_v0) ?_
  funext a
  apply Fin.ext
  match a with
  | ⟨0, _⟩ => show win0_0.index t (0 : Fin 3) * 2 + 1 * (y 0).val = (i 0).val; rw [e0, h0]; omega
  | ⟨1, _⟩ => show win0_0.index t (1 : Fin 3) * 512 + 1 * (y 1).val = (i 1).val; rw [e1, h1]; omega
  | ⟨2, _⟩ => show win0_0.index t (2 : Fin 3) * 784 + 1 * (y 2).val = (i 2).val; rw [e2, h2]; omega

/-! The weights' and biases' blocks are their whole arrays. -/

theorem iblk1_eq (c : Dev nD) (t : Fin cfg0.N) :
    (iblk m c 1 t : Vec Ideal S32x512 .f32) = (V m c main_arg1 : S32x512.Idx → Elt Ideal .f32) := by
  obtain ⟨-, -, -, -, -, -, e0, e1, h⟩ := idx_facts t
  funext y
  unfold iblk
  rw [View.read_apply]
  show V m c main_arg1 _ = V m c main_arg1 y
  refine congrArg (V m c main_arg1) ?_
  funext a
  apply Fin.ext
  match a with
  | ⟨0, _⟩ => show win0_1.index t (0 : Fin 2) * 32 + 1 * (y 0).val = (y 0).val; rw [e0]; omega
  | ⟨1, _⟩ => show win0_1.index t (1 : Fin 2) * 512 + 1 * (y 1).val = (y 1).val; rw [e1]; omega

theorem iblk2_eq (c : Dev nD) (t : Fin cfg0.N) :
    (iblk m c 2 t : Vec Ideal S1x32 .f32) = (V m c main_v1 : S1x32.Idx → Elt Ideal .f32) := by
  obtain ⟨-, -, -, -, -, -, -, -, e0, e1, h⟩ := idx_facts t
  funext y
  unfold iblk
  rw [View.read_apply]
  show V m c main_v1 _ = V m c main_v1 y
  refine congrArg (V m c main_v1) ?_
  funext a
  apply Fin.ext
  match a with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

theorem iblk3_eq (c : Dev nD) (t : Fin cfg0.N) :
    (iblk m c 3 t : Vec Ideal S512x32 .f32) = (V m c main_arg3 : S512x32.Idx → Elt Ideal .f32) := by
  obtain ⟨-, -, -, -, -, -, -, -, -, -, e0, e1, h⟩ := idx_facts t
  funext y
  unfold iblk
  rw [View.read_apply]
  show V m c main_arg3 _ = V m c main_arg3 y
  refine congrArg (V m c main_arg3) ?_
  funext a
  apply Fin.ext
  match a with
  | ⟨0, _⟩ => show win0_3.index t (0 : Fin 2) * 512 + 1 * (y 0).val = (y 0).val; rw [e0]; omega
  | ⟨1, _⟩ => show win0_3.index t (1 : Fin 2) * 32 + 1 * (y 1).val = (y 1).val; rw [e1]; omega

theorem iblk4_eq (c : Dev nD) (t : Fin cfg0.N) :
    (iblk m c 4 t : Vec Ideal S1x512 .f32) = (V m c main_v2 : S1x512.Idx → Elt Ideal .f32) := by
  obtain ⟨-, -, -, -, -, -, -, -, -, -, -, -, e0, e1, h⟩ := idx_facts t
  funext y
  unfold iblk
  rw [View.read_apply]
  show V m c main_v2 _ = V m c main_v2 y
  refine congrArg (V m c main_v2) ?_
  funext a
  apply Fin.ext
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

/-- WHAT POINT t WRITES BACK is block t of the region's output function of the arrays the region finds. -/
theorem flushed_eq (c : Dev nD) (t : Fin cfg0.N) :
    (dats m 0 c).flushed 5 t = ((cfg0.win 5).blk t).view.read (Elt Ideal)
      (regionOut (V m c main_v0) (V m c main_arg1) (V m c main_v1) (V m c main_arg3) (V m c main_v2)) := by
  show (cfg0.win 5).cut (grid0.coords t) ((dats m 0 c).after 5 t) = _
  rw [after0_5]
  unfold out0_5
  rw [View.canon_unit_zero zeros3]
  simp only [View.ld_unit_zero (S := S2x512x784) zeros3, View.ld_unit_zero (S := S32x512) zeros2,
    View.ld_unit_zero (S := S1x32) zeros2, View.ld_unit_zero (S := S512x32) zeros2, View.ld_unit_zero (S := S1x512) zeros2]
  rw [iblk1_eq, iblk2_eq, iblk3_eq, iblk4_eq]
  obtain ⟨-, -, -, e0, e1, e2, h⟩ := idx_facts t
  funext j
  show k0_pay1 (F := Ideal) (k0_pay2 (F := Ideal) (iblk m c 0 t) (V m c main_arg1) (V m c main_v1) (V m c main_arg3) (V m c main_v2))
      (iblk m c 0 t) j
    = regionOut (V m c main_v0) (V m c main_arg1) (V m c main_v1) (V m c main_arg3) (V m c main_v2) (((cfg0.win 5).blk t).view.emb j)
  refine pay_eq_regionOut _ _ _ _ _ (iblk m c 0 t) t.val (fun y i h0 h1 h2 => iblk0_apply m c t y i h0 h1 h2) j _ ?_ ?_ ?_
  · show win0_5.index t (0 : Fin 3) * 2 + 1 * (j 0).val = 2 * t.val + (j 0).val; rw [e0]; omega
  · show win0_5.index t (1 : Fin 3) * 512 + 1 * (j 1).val = (j 1).val; rw [e1]; omega
  · show win0_5.index t (2 : Fin 3) * 784 + 1 * (j 2).val = (j 2).val; rw [e2]; omega

/-- An entry of the output array is in point t's block iff each coordinate is in the block's range on its axis. -/
theorem mem_blk (t : Fin cfg0.N) (i : S128x512x784.Idx) :
    i ∈ ((cfg0.win 5).blk t).view.set ↔ ∀ a : Fin 3, win0_5.index t a * S2x512x784.size a ≤ (i a).val
      ∧ (i a).val < win0_5.index t a * S2x512x784.size a + S2x512x784.size a := by
  show i ∈ ((View.whole main_v3).slice (win0_5.rect t)).set ↔ _
  rw [View.set_slice_whole, Rect.mem_set_unit]
  exact Iff.rfl

/-- Every entry is in some point's block: sample n is in block n / 2. -/
theorem cover (i : S128x512x784.Idx) :
    ∃ t : Fin cfg0.N, (cfg0.win 5).flush t = true ∧ i ∈ ((cfg0.win 5).blk t).view.set := by
  have hi0 : (i 0).val < 128 := (i 0).isLt
  have hi1 : (i 1).val < 512 := (i 1).isLt
  have hi2 : (i 2).val < 784 := (i 2).isLt
  have hN : cfg0.N = 64 := N_0
  obtain ⟨t, ht⟩ : ∃ t : Fin cfg0.N, t.val = (i 0).val / 2 := ⟨⟨(i 0).val / 2, by rw [hN]; omega⟩, rfl⟩
  obtain ⟨-, -, -, e0, e1, e2, h⟩ := idx_facts t
  refine ⟨t, flush0_5 t, ?_⟩
  rw [mem_blk]
  intro a
  match a with
  | ⟨0, _⟩ =>
    show win0_5.index t (0 : Fin 3) * 2 ≤ (i 0).val ∧ (i 0).val < win0_5.index t (0 : Fin 3) * 2 + 2
    rw [e0, ht]; omega
  | ⟨1, _⟩ =>
    show win0_5.index t (1 : Fin 3) * 512 ≤ (i 1).val ∧ (i 1).val < win0_5.index t (1 : Fin 3) * 512 + 512
    rw [e1]; omega
  | ⟨2, _⟩ =>
    show win0_5.index t (2 : Fin 3) * 784 ≤ (i 2).val ∧ (i 2).val < win0_5.index t (2 : Fin 3) * 784 + 784
    rw [e2]; omega

/-- THE OUTPUT ARRAY AFTER THE REGION is the region's output function of the arrays the region finds. -/
theorem final (c : Dev nD) : (dats m 0 c).arrAt 5 cfg0.N
    = regionOut (V m c main_v0) (V m c main_arg1) (V m c main_v1) (V m c main_arg3) (V m c main_v2) :=
  (dats m 0 c).arrAt_eq_of_cover 5 _ (fun t _ => flushed_eq m c t) cover

end Cert.ReferenceIdeal.Blocks

end
-- ==== Proof.RefHost.lean ====
/-
  The reference's program around its region, read back as one function of the arguments.

  Before the region the input [128, 512, 28, 28] is flattened to [128, 512, 784], each plane read row by row, so entry
  (n, c, k) is the input's (n, c, k / 28, k % 28); the two biases become one-row matrices; the weights are used as they are.
  After the region the output is unflattened, so the result's entry (n, c, h, w) is the region's (n, c, 28 h + w). Put
  together, the result is the rescaled input of the specification.
-/
import proofs.«102385_g2000102880627406_pallasbulk_1311_16_alg».proof.Proof.Gen.ReferenceIdeal.Frame
import proofs.«102385_g2000102880627406_pallasbulk_1311_16_alg».proof.Proof.RefBlocks
import Idealize.ShloMosaic.Lib.StableHlo.Run
import Idealize.ShloMosaic.Lib.ValueLayout
import Idealize.ShloMosaic.Lib.Tactic

set_option maxRecDepth 16384

noncomputable section

namespace Cert.ReferenceIdeal.Host

open Idealize.ShloMosaic Idealize.ShloMosaic.TcCoe Idealize.SL.Sem Idealize.ShloMosaic.ValueIdx
open Idealize.ShloMosaic.Pipeline (Dat)
open Cert.ReferenceIdeal Cert.ReferenceIdeal.Gen Cert.ReferenceIdeal.Body Cert.ReferenceIdeal.Blocks Cert.Gate

/-! ## The two changes of layout, read at an entry -/

/-- The input with each plane flattened: entry (n, c, k) is position k of plane (n, c). -/
theorem flattened_apply (x : S128x512x28x28.Idx → EReal) (hsc : S128x512x28x28.ShapeCasts S128x512x784)
    (n : Fin 128) (c : Fin 512) (k : Fin 784) : shapeCast S128x512x784 x hsc (ix3 n c k) = plane x n c k := by
  have hk : k.val < 784 := k.isLt
  refine shapeCast_apply x hsc (ix3 n c k) (ix4 n c (⟨k.val / 28, by omega⟩ : Fin 28) (⟨k.val % 28, by omega⟩ : Fin 28)) ?_
  rw [Shape.rowMajor_val_four, Shape.rowMajor_val_three]
  show ((n.val * 512 + c.val) * 28 + k.val / 28) * 28 + k.val % 28 = (n.val * 512 + c.val) * 784 + k.val
  omega

/-- A flattened array unflattened: entry (n, c, h, w) is its entry (n, c, 28 h + w). -/
theorem unflattened_apply (G : S128x512x784.Idx → EReal) (hsc : S128x512x784.ShapeCasts S128x512x28x28)
    (n : Fin 128) (c : Fin 512) (h w : Fin 28) :
    shapeCast S128x512x28x28 G hsc (ix4 n c h w) = G (ix3 n c (flat h w)) := by
  refine shapeCast_apply G hsc (ix4 n c h w) (ix3 n c (flat h w)) ?_
  rw [Shape.rowMajor_val_three, Shape.rowMajor_val_four]
  show (n.val * 512 + c.val) * 784 + (h.val * 28 + w.val) = ((n.val * 512 + c.val) * 28 + h.val) * 28 + w.val
  omega

/-- THE REGION'S OUTPUT OF THE PREPARED ARGUMENTS at (n, q, k) is the specification's rescaled entry. -/
theorem regionOut_prepared (x : S128x512x28x28.Idx → EReal) (w1 : S32x512.Idx → EReal) (b1 : S32.Idx → EReal)
    (w2 : S512x32.Idx → EReal) (b2 : S512.Idx → EReal)
    (hsc0 : S128x512x28x28.ShapeCasts S128x512x784) (hsc2 : S32.ShapeCasts S1x32) (hsc4 : S512.ShapeCasts S1x512)
    (n : Fin 128) (q : Fin 512) (k : Fin 784) :
    regionOut (shapeCast S128x512x784 x hsc0) w1 (shapeCast S1x32 b1 hsc2) w2 (shapeCast S1x512 b2 hsc4) (ix3 n q k)
      = rescaled x w1 b1 w2 b2 n q k := by
  show shapeCast S128x512x784 x hsc0 (ix3 n q k)
      * gate (fun c => ∑ k' : Fin 784, shapeCast S128x512x784 x hsc0 (ix3 n c k'))
          (fun r c => w1 (ix2 r c)) (fun r => shapeCast S1x32 b1 hsc2 (ix2 (0 : Fin 1) r))
          (fun q' r => w2 (ix2 q' r)) (fun q' => shapeCast S1x512 b2 hsc4 (ix2 (0 : Fin 1) q')) q
    = plane x n q k * gate (fun c' => ∑ k' : Fin 784, plane x n c' k') (fun r c' => w1 (ix2 r c')) (fun r => b1 (ix1 r))
          (fun q' r => w2 (ix2 q' r)) (fun q' => b2 (ix1 q')) q
  have h0 : ∀ (c : Fin 512) (k' : Fin 784), shapeCast S128x512x784 x hsc0 (ix3 n c k') = plane x n c k' :=
    fun c k' => flattened_apply x hsc0 n c k'
  have h2 : ∀ r : Fin 32, shapeCast S1x32 b1 hsc2 (ix2 (0 : Fin 1) r) = b1 (ix1 r) :=
    fun r => shapeCast_a_1a_apply b1 hsc2 (0 : Fin 1) r
  have h4 : ∀ q' : Fin 512, shapeCast S1x512 b2 hsc4 (ix2 (0 : Fin 1) q') = b2 (ix1 q') :=
    fun q' => shapeCast_a_1a_apply b2 hsc4 (0 : Fin 1) q'
  simp only [h0, h2, h4]

variable (m : (ℓ : Loc nD τ sig) → Buf (Elt Ideal) ℓ) (ρ : Dev nD → PrngReg)

/-! ## The arrays the region finds, as terms of the arguments -/

theorem found_v0 (c : Dev nD) : (V m c main_v0 : S128x512x784.Idx → Elt Ideal .f32)
    = shapeCast S128x512x784 (m ((c : Thread nD τ).loc main_arg0)) Facts₀.shapeCasts_S128x512x28x28_S128x512x784 := by
  show StableHlo.after hostOps0 (fun b => m (c, b)) (Proc.devRef .tc main_v0) = _
  after_results
  rfl

theorem found_v1 (c : Dev nD) : (V m c main_v1 : S1x32.Idx → Elt Ideal .f32)
    = shapeCast S1x32 (m ((c : Thread nD τ).loc main_arg2)) Facts₀.shapeCasts_S32_S1x32 := by
  show StableHlo.after hostOps0 (fun b => m (c, b)) (Proc.devRef .tc main_v1) = _
  after_results
  rfl

theorem found_v2 (c : Dev nD) : (V m c main_v2 : S1x512.Idx → Elt Ideal .f32)
    = shapeCast S1x512 (m ((c : Thread nD τ).loc main_arg4)) Facts₀.shapeCasts_S512_S1x512 := by
  show StableHlo.after hostOps0 (fun b => m (c, b)) (Proc.devRef .tc main_v2) = _
  after_results
  rfl

/-! ## The result -/

/-- The output array as the line after the region finds it is the region's output function (the blocks' cover). -/
theorem region_array (c : Dev nD) :
    (Pipeline.withArrays (cfgs 0).spec c (V0 m c) (fun w => (dats m 0 c).arrAt w (cfgs 0).N) (Proc.devRef .tc main_v3)
        : S128x512x784.Idx → Elt Ideal .f32)
      = regionOut (V m c main_v0) (V m c main_arg1) (V m c main_v1) (V m c main_arg3) (V m c main_v2) :=
  (Pipeline.withArrays_arr spec0 launch0.win.arr_inj c _ _ 5).trans (final m c)

/-- The program's result as the line after the region computes it from that array. -/
theorem tail_term (c : Dev nD) :
    (Pipeline.afterTail₀ cfgs (dats m) 0 (V0 m) [hostOps1] c main_v4 : S128x512x28x28.Idx → Elt Ideal .f32)
      = shapeCast S128x512x28x28
          (Pipeline.withArrays (cfgs 0).spec c (V0 m c) (fun w => (dats m 0 c).arrAt w (cfgs 0).N) (Proc.devRef .tc main_v3))
          Facts₀.shapeCasts_S128x512x784_S128x512x28x28 := by
  unfold Pipeline.afterTail₀
  show StableHlo.after hostOps1 _ (Proc.devRef .tc main_v4) = _
  after_results
  rfl

/-- THE PROGRAM'S RESULT is the specification's result of the five arguments. -/
theorem result_eq (c : Dev nD) :
    (Pipeline.afterTail₀ cfgs (dats m) 0 (V0 m) [hostOps1] c main_v4 : S128x512x28x28.Idx → Elt Ideal .f32)
      = result (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_term, region_array, found_v0, found_v1, found_v2, V_main_arg1, V_main_arg3]
  funext i
  obtain ⟨n, q, h, w, rfl⟩ : ∃ (n : Fin 128) (q : Fin 512) (h w : Fin 28), i = ix4 n q h w := ⟨i 0, i 1, i 2, i 3, eq_ix4 i⟩
  rw [unflattened_apply, regionOut_prepared, result_ix4]

/-- THE RUN, READ: every weakly fair execution ends with the result array at the specification's result of the arguments,
    and the arguments as they were. -/
theorem run : θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans ((((dats m) 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans ((((dats m) 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.ReferenceIdeal.Host

end
-- ==== Proof.lean ====
/-
  The certificate: a squeeze-and-excitation gate computed on a positions-first [784, 128, 512] layout with two matrix
  products, against the same gate computed on a [128, 512, 784] layout with products summed along the last axis.

  Both idealized programs end with the same array: every entry of the input times the gate of its sample at its channel,
  where a sample's gate is the logistic function of a two-layer network applied to the means of the sample's 512 planes
  (Proof/GateSpec.lean, `result`). The kernel's side: Proof/KernelBody.lean (what the body stores, at one entry),
  Proof/KernelBlocks.lean (the 16 blocks tile the output array), Proof/KernelHost.lean (the transposes and reshapes around the
  region, and the run). The reference's side: Proof/RefBody.lean, Proof/RefBlocks.lean (64 blocks), Proof/RefHost.lean. The
  two sides differ by the order of the factors in the network's products, which commute on the extended reals, and by the
  layouts; no finiteness is used, so the precondition is never opened. The word-level kernel needs only its generated frame,
  and the idealization rewrote nothing.
-/
import proofs.«102385_g2000102880627406_pallasbulk_1311_16_alg».proof.Defs
import proofs.«102385_g2000102880627406_pallasbulk_1311_16_alg».proof.Proof.Gen.Kernel
import proofs.«102385_g2000102880627406_pallasbulk_1311_16_alg».proof.Proof.Gen.Kernel.Frame
import proofs.«102385_g2000102880627406_pallasbulk_1311_16_alg».proof.Proof.Gen.KernelIdeal
import proofs.«102385_g2000102880627406_pallasbulk_1311_16_alg».proof.Proof.Gen.KernelIdeal.Frame
import proofs.«102385_g2000102880627406_pallasbulk_1311_16_alg».proof.Proof.Gen.ReferenceIdeal
import proofs.«102385_g2000102880627406_pallasbulk_1311_16_alg».proof.Proof.Gen.ReferenceIdeal.Frame
import proofs.«102385_g2000102880627406_pallasbulk_1311_16_alg».proof.Proof.Gen.Pre_finite_inputs
import proofs.«102385_g2000102880627406_pallasbulk_1311_16_alg».proof.Proof.KernelHost
import proofs.«102385_g2000102880627406_pallasbulk_1311_16_alg».proof.Proof.RefHost

noncomputable section

namespace Cert.Proof

open Idealize.ShloMosaic Idealize.SL.Sem

/-- The three programs run, fault-free, and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The idealization rewrote no operation. -/
theorem preserves : Cert.preserves_Kernel_KernelIdeal := trivial

/-- From memories agreeing on the arguments both idealized programs end with the specification's result of those arguments. -/
theorem algebraic : Cert.algebraic_KernelIdeal_ReferenceIdeal := by
  intro m ρ m' ρ' _ hagree
  refine ⟨fun c => Cert.Gate.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Host.run m ρ, ?_⟩
  refine (θ_run Cert.ReferenceIdeal.defs _ _).mono (fun _ h c => ⟨(h c).1.trans ?_, (h c).2⟩)
    (Cert.ReferenceIdeal.Host.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
